-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S2048x512 : Shape := ⟨2, ![2048, 512]⟩
abbrev S1024x512 : Shape := ⟨2, ![1024, 512]⟩
abbrev S16x512 : Shape := ⟨2, ![16, 512]⟩
abbrev S1024x16 : Shape := ⟨2, ![1024, 16]⟩
abbrev S1x1024 : Shape := ⟨2, ![1, 1024]⟩
abbrev S2048x1024 : Shape := ⟨2, ![2048, 1024]⟩

abbrev nBuf : Space → Nat
  | .hbm => 11
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S8192x4096, .bf16⟩
  | .hbm, ⟨7, _⟩ => ⟨S4096x4096, .bf16⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S16x512, .f32⟩
  | .local _ .vmem, ⟨5, _⟩ => ⟨S16x512, .f32⟩
  | .local _ .vmem, ⟨6, _⟩ => ⟨S1024x16, .f32⟩
  | .local _ .vmem, ⟨7, _⟩ => ⟨S1024x16, .f32⟩
  | .local _ .vmem, ⟨8, _⟩ => ⟨S1x1024, .f32⟩
  | .local _ .vmem, ⟨9, _⟩ => ⟨S1x1024, .f32⟩
  | .local _ .vmem, ⟨10, _⟩ => ⟨S2048x1024, .f32⟩
  | .local _ .vmem, ⟨11, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S1024x16_S1024x16_0_0 : ∀ a, (![0, 0] : Fin 2 → Nat) a + S1024x16.size a ≤ S1024x16.size a
  h_S1024x16 : 0 < S1024x16.numel
  inb_S16x512_S16x512_0_0 : ∀ a, (![0, 0] : Fin 2 → Nat) a + S16x512.size a ≤ S16x512.size a
  h_S16x512 : 0 < S16x512.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S1024x16_S16x512_S1024x512_1_0_0_1_n_n_wf : DotDims.WF S1024x16 S16x512 S1024x512 [1] [0] [0] [1] [] []
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x4096.size a
  hwx0_2 : ∀ i : grid0.Coords, EltTy.bits .f32 = 32 ∨ (Rect.block (s := S16x4096) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S8192x4096.size a
  hwx0_5 : ∀ i : grid0.Coords, EltTy.bits .f32 = 32 ∨ (Rect.block (s := S8192x4096) S2048x1024.size (cc0_transform_5 i) (hinb0_5 i)).WholeWords (EltTy.packing .f32)

variable [Facts₀]

def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩
abbrev S1x1x4096 : Shape := ⟨3, ![1, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4x2048x4096, .f32⟩
  | .hbm, ⟨12, _⟩ => ⟨S1x1x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S16x4096_S4096x16_S4096x4096_0_1_1_0_n_n_wf : DotDims.WF S16x4096 S4096x16 S4096x4096 [0] [1] [1] [0] [] []
  dot_S4x2048x4096_S4096x4096_S4x2048x4096_2_1_01_0_n_n_wf : DotDims.WF S4x2048x4096 S4096x4096 S4x2048x4096 [2] [1] [0, 1] [0] [] []

variable [Facts₀]

def dot_S16x4096_S4096x16_S4096x4096_0_1_1_0_n_n : DotDims S16x4096 S4096x16 S4096x4096 where
  lhsContracting := [0]
  rhsContracting := [1]
  lhsNonContracting := [1]
  rhsNonContracting := [0]
  lhsBatch := []
  rhsBatch := []
  wf := dot_S16x4096_S4096x16_S4096x4096_0_1_1_0_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.StepValues.lean ====
/-
  What the kernel body leaves in the output block, case by case, as a value.

  The body keeps the output block resident over the eight steps of the contraction. At the first step it stores
  the zero block, reads it back and adds the step's product (`firstStep`); at a middle step it adds the step's
  product to what the block held (`middleStep`); at the last step it does the same and then adds the bias row to
  what it reads back (`lastStep`). Each store writes the whole block, so the block ends at the last store's
  payload, and a read-back between two stores reads the earlier store's payload. The statements hold for any
  float values; the arithmetic stays folded in the payloads `k0_pay1` (the zero block), `k0_pay2` (the
  accumulation) and `k0_pay3` (the bias).
-/
import proofs.«127509_j3977139716930_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Steps

open Cert.KernelIdeal Cert.KernelIdeal.Gen

variable {F : FTy → Type} [FloatOps F]

theorem hz : (![0, 0] : Fin 2 → Nat) = fun _ => 0 := funext fun a => by fin_cases a <;> rfl

/-- A MIDDLE STEP: over a block holding `acc`, the body leaves the accumulation payload of the input blocks and `acc`. -/
theorem middleStep (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (hc0 : ¬cond0_0 i) (hc1 : ¬cond0_1 i) (x0 : Vec F S2048x512 .bf16) (x1 : Vec F S1024x512 .bf16) (x2 : Vec F S16x512 .f32) (x3 : Vec F S1024x16 .f32) (x4 : Vec F S1x1024 .f32) (xo5 : Vec F S2048x1024 .f32) :
    out0_B_5 c i arg3 harg3 arg4 harg4 arg5 harg5 arg6 harg6 arg7 harg7 arg8 harg8 hc0 hc1 x0 x1 x2 x3 x4 xo5 = k0_pay2 x3 x2 x1 x0 xo5 := by
  unfold out0_B_5
  rw [View.read_writes_eq_canon _ _ _ (cover0_B_5 c i arg3 harg3 arg4 harg4 arg5 harg5 arg6 harg6 arg7 harg7 arg8 harg8 hc0 hc1 x0 x1 x2 x3 x4 xo5)]
  unfold kernelRun0_B
  dsimp only
  rw [View.canon_unit_zero hz]
  simp only [View.readAt_eq_ld, harg3.read_unread, harg4.read_unread, harg5.read_unread, harg6.read_unread,
    harg8.read_unread, View.ld_unit_zero (S := S1024x16) hz, View.ld_unit_zero (S := S16x512) hz,
    View.ld_unit_zero (S := S1024x512) hz, View.ld_unit_zero (S := S2048x512) hz,
    View.ld_unit_zero (S := S2048x1024) hz]

/-- THE FIRST STEP: the body stores the zero block, reads it back, and leaves the accumulation payload over it. -/
theorem firstStep (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (hc0 : cond0_0 i) (hc1 : ¬cond0_1 i) (x0 : Vec F S2048x512 .bf16) (x1 : Vec F S1024x512 .bf16) (x2 : Vec F S16x512 .f32) (x3 : Vec F S1024x16 .f32) (x4 : Vec F S1x1024 .f32) :
    out0_A_5 c i arg3 harg3 arg4 harg4 arg5 harg5 arg6 harg6 arg7 harg7 arg8 harg8 hc0 hc1 x0 x1 x2 x3 x4 = k0_pay2 x3 x2 x1 x0 k0_pay1 := by
  unfold out0_A_5
  rw [View.read_writes_eq_canon _ _ _ (cover0_A_5 c i arg3 harg3 arg4 harg4 arg5 harg5 arg6 harg6 arg7 harg7 arg8 harg8 hc0 hc1 x0 x1 x2 x3 x4)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread, harg6.read_unread,
    View.ld_unit_zero (S := S1024x16) hz, View.ld_unit_zero (S := S16x512) hz,
    View.ld_unit_zero (S := S1024x512) hz, View.ld_unit_zero (S := S2048x512) hz]

/-- THE LAST STEP: the body accumulates over `acc`, reads the block back, and leaves the bias payload over it. -/
theorem lastStep (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (hc0 : ¬cond0_0 i) (hc1 : cond0_1 i) (x0 : Vec F S2048x512 .bf16) (x1 : Vec F S1024x512 .bf16) (x2 : Vec F S16x512 .f32) (x3 : Vec F S1024x16 .f32) (x4 : Vec F S1x1024 .f32) (xo5 : Vec F S2048x1024 .f32) :
    out0_C_5 c i arg3 harg3 arg4 harg4 arg5 harg5 arg6 harg6 arg7 harg7 arg8 harg8 hc0 hc1 x0 x1 x2 x3 x4 xo5 = k0_pay3 (k0_pay2 x3 x2 x1 x0 xo5) x4 := by
  unfold out0_C_5
  rw [View.read_writes_eq_canon _ _ _ (cover0_C_5 c i arg3 harg3 arg4 harg4 arg5 harg5 arg6 harg6 arg7 harg7 arg8 harg8 hc0 hc1 x0 x1 x2 x3 x4 xo5)]
  unfold kernelRun0_C
  dsimp only
  sl_unfold_words
  rw [View.canon_cons_unit_zero (S := S2048x1024) hz, View.readCov_unit_zero (S := S2048x1024) _ hz]
  simp only [View.readAt_eq_ld, harg3.read_unread, harg4.read_unread, harg5.read_unread, harg6.read_unread,
    harg7.read_unread, harg8.read_unread, View.ld_unit_zero (S := S1024x16) hz, View.ld_unit_zero (S := S16x512) hz,
    View.ld_unit_zero (S := S1024x512) hz, View.ld_unit_zero (S := S2048x512) hz,
    View.ld_unit_zero (S := S2048x1024) hz, View.ld_unit_zero (S := S1x1024) hz]

end Cert.KernelIdeal.Steps

end
-- ==== Proof.LibContractLast.lean ====
/-
  A matrix product that contracts the LAST axis of both operands, read at an entry, generic in the sizes.

  For an `A × K` left operand and a `B × K` right operand the product's entry `(i, j)` is the sum over the
  contracted coordinate `k` of `l (i, k) · r (j, k)` — the left operand times the transpose of the right one. Over
  the extended reals this holds of the host's `dot_general` with these dimension numbers (`dotLast_apply`) and of the
  kernel's matrix product accumulated into a zero constant (`matmulLast_zero_apply`), whatever the operands' float
  formats: at the ideal values a change of format is the identity and the accumulator `0` is the neutral element.
-/
import Idealize.ShloMosaic.Lib.ValueIdx
import Idealize.ShloMosaic.PureOps.Ideal.Laws

noncomputable section

open scoped BigOperators

namespace Cert.LibContractLast

open Idealize.ShloMosaic Idealize.ShloMosaic.ValueIdx

/-- The dimension numbers of the product of an `A × K` matrix with the transpose of a `B × K` matrix: axis 1 of each
    operand contracted, no batch axes. -/
abbrev lastDims (A K B : Nat)
    (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ where
  lhsContracting := [1]
  rhsContracting := [1]
  lhsNonContracting := [0]
  rhsNonContracting := [0]
  lhsBatch := []
  rhsBatch := []
  wf := wf

/-- The sum over the contraction index of these dimension numbers, at the entry `(i, j)`, is the sum over the
    shared last coordinate `k` of the left operand at `(i, k)` times the right operand at `(j, k)`. -/
theorem contraction_eq {α : Type} [AddCommMonoid α] [Mul α] (A K B : Nat)
    (wf : DotDims.WF ⟨2, ![A, K]⟩ ⟨2, ![B, K]⟩ ⟨2, ![A, B]⟩ [1] [1] [0] [0] [] [])
    (l : (⟨2, ![A, K]⟩ : Shape).Idx → α) (r : (⟨2, ![B, K]⟩ : Shape).Idx → α) (i : Fin A) (j : Fin B) :
    ∑ q : (lastDims A K B wf).contr.Idx,
        l ((lastDims A K B wf).lhsIdx (ix2 i j) q) * r ((lastDims A K B wf).rhsIdx (ix2 i j) q)
      = ∑ k : Fin K, l (ix2 i k) * r (ix2 j k) := by
  rw [← Equiv.sum_comp (contrEquiv1 (lastDims A K B wf) K rfl rfl).symm]
  refine Finset.sum_congr rfl fun c _ => ?_
  have c2 := contrEquiv1_symm_val (lastDims A K B wf) K rfl rfl c
  have l2 : (lastDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (lastDims A K B wf).rhsIdx (ix2 i j) ((contrEquiv1 _ K rfl rfl).symm c) = ix2 j c := by
    funext ax; apply Fin.ext
    match ax with
    | ⟨0, _⟩ => simp [DotDims.rhsIdx]; rfl
    | ⟨1, _⟩ => simp [DotDims.rhsIdx]; exact c2
  rw [l2, r2]

/-- THE HOST'S PRODUCT read at `(i, j)`, over the extended reals. -/
theorem dotLast_apply {φ₁ φ₂ : FTy} (A K B : Nat)
    (wf : DotDims.WF ⟨2, ![A, K]⟩ ⟨2, ![B, K]⟩ ⟨2, ![A, B]⟩ [1] [1] [0] [0] [] [])
    (prec : Option ContractPrecision)
    (l : FVec Ideal ⟨2, ![A, K]⟩ φ₁) (r : FVec Ideal ⟨2, ![B, K]⟩ φ₂) (i : Fin A) (j : Fin B) :
    Host.dotGeneral (lastDims A K B wf) prec l r (ix2 i j) = ∑ k : Fin K, l (ix2 i k) * r (ix2 j k) := by
  show FloatOps.dotGeneral _ prec _ l r (ix2 i j) = _
  rw [Ideal.dotGeneral_apply]
  exact contraction_eq A K B wf l r i j

/-- THE KERNEL'S PRODUCT INTO A ZERO ACCUMULATOR read at `(i, j)`, over the extended reals: the same sum. -/
theorem matmulLast_zero_apply {φ₁ φ₂ : FTy} (A K B : Nat)
    (wf : DotDims.WF ⟨2, ![A, K]⟩ ⟨2, ![B, K]⟩ ⟨2, ![A, B]⟩ [1] [1] [0] [0] [] [])
    (prec : Option ContractPrecision)
    (l : FVec Ideal ⟨2, ![A, K]⟩ φ₁) (r : FVec Ideal ⟨2, ![B, K]⟩ φ₂) (i : Fin A) (j : Fin B) :
    FloatOps.matmul (lastDims A K B wf) prec l r (constant (F := Ideal) ⟨2, ![A, B]⟩ .f32 0x00000000#32) (ix2 i j)
      = ∑ k : Fin K, l (ix2 i k) * r (ix2 j k) := by
  rw [Ideal.matmul_constant_zero_apply]
  exact contraction_eq A K B wf l r i j

end Cert.LibContractLast

end
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.LibBlockedSums.lean ====
/-
  Finite sums over a product index, as a tiled contraction meets them.

  A contraction over `A * B` columns computed block by block (an accumulator that adds one block of `B` columns
  per step) is the sum over all columns; a contraction over rows numbered `a * M + j` (row `a` of slab `j`,
  the slabs interleaved) is the sum over the slabs of the sums over their rows; a contraction padded by rows
  whose terms vanish is the contraction over the unpadded rows. All three hold in any commutative additive
  monoid, so in particular over the extended reals, where they need no finiteness: only the order and the
  grouping of the terms change, and the padding terms are exact zeros.
-/
import Mathlib.Algebra.BigOperators.Fin
import Mathlib.Algebra.BigOperators.Group.Finset.Basic
import Mathlib.Logic.Equiv.Fin.Basic
import Mathlib.Tactic.Ring
import Mathlib.Tactic.Linarith

namespace BlockedSums

variable {M : Type*} [AddCommMonoid M]

/-- Column `b` of block `a`, numbered row-major, is a column of the whole. -/
theorem idx_lt {A B : ℕ} (a : Fin A) (b : Fin B) : a.val * B + b.val < A * B := by
  have ha := a.isLt
  have hb := b.isLt
  calc a.val * B + b.val < a.val * B + B := by omega
    _ = (a.val + 1) * B := by ring
    _ ≤ A * B := Nat.mul_le_mul_right B ha

/-- A sum over `A * B` columns is the sum over the `A` blocks of the sums over each block's `B` columns. -/
theorem sum_blocks (A B : ℕ) (f : Fin (A * B) → M) :
    ∑ k, f k = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  show b.val + B * a.val = a.val * B + b.val
  ring

/-- The same sum with the roles exchanged: over the `B` positions inside a block, of the sums over the blocks
    (rows numbered `a * B + j` gathered slab by slab, slab `j` holding the rows `a * B + j`). -/
theorem sum_interleaved (A B : ℕ) (f : Fin (A * B) → M) :
    ∑ k, f k = ∑ j : Fin B, ∑ a : Fin A, f ⟨a.val * B + j.val, idx_lt a j⟩ := by
  rw [sum_blocks, Finset.sum_comm]

/-- Padding rows whose terms vanish leave a sum as it was. -/
theorem sum_padded (K P : ℕ) (f : Fin (K + P) → M) (hz : ∀ k : Fin (K + P), K ≤ k.val → f k = 0) :
    ∑ k, f k = ∑ k : Fin K, f (Fin.castAdd P k) := by
  rw [Fin.sum_univ_add]
  have h0 : ∑ i : Fin P, f (Fin.natAdd K i) = 0 :=
    Finset.sum_eq_zero fun i _ => hz _ (by simp [Fin.natAdd])
  rw [h0, add_zero]

/-- An accumulator that starts from the first block's contribution and adds one block per step holds, after
    step `n`, the sum of the contributions of the blocks `0 … n`. -/
theorem acc_eq_sum (g : ℕ → M) (acc : ℕ → M) (h0 : acc 0 = g 0) (hs : ∀ n, acc (n + 1) = acc n + g (n + 1)) (n : ℕ) :
    acc n = ∑ i ∈ Finset.range (n + 1), g i := by
  induction n with
  | zero => simp [h0]
  | succ n ih => rw [hs, ih, Finset.sum_range_succ _ (n + 1)]

/-- The same for an accumulator zeroed before the first block is added. -/
theorem acc_from_zero_eq_sum (g : ℕ → M) (acc : ℕ → M) (h0 : acc 0 = 0 + g 0) (hs : ∀ n, acc (n + 1) = acc n + g (n + 1)) (n : ℕ) :
    acc n = ∑ i ∈ Finset.range (n + 1), g i :=
  acc_eq_sum g acc (by rw [h0, zero_add]) hs n

/-- The blocks `0 … A - 1` summed over a range are the blocks summed over `Fin A`. -/
theorem sum_range_eq_sum_fin (A : ℕ) (g : ℕ → M) : ∑ i ∈ Finset.range A, g i = ∑ a : Fin A, g a.val :=
  (Fin.sum_univ_eq_sum_range g A).symm

end BlockedSums
-- ==== Proof.ScaledLinear.lean ====
/-
  A linear layer whose weight is scaled entrywise by one plus a rank-16 product, as one function of its arguments.

  For `x : [4, 2048, 4096]`, `W : [4096, 4096]`, `bias : [4096]`, `A : [16, 4096]`, `B : [4096, 16]` the result at
  `(b, s, o)` is

      (∑ i, x[b, s, i] · (W[o, i] · (∑ r, A[r, i] · B[o, r] + 1))) + bias[o]

  over the extended reals (`result`). A tiled computation reaches the same value by cutting the contraction over `i`
  into eight slabs of 512 columns and adding one slab per step to an accumulator: `partialSum … n` is the accumulator
  after slab `n`, and after the last slab it is the whole contraction (`partialSum_full`). Only the grouping of the
  terms of a finite sum changes, so no finiteness is needed: the extended reals are a commutative additive monoid.

  Matrices are read at natural-number coordinates (`at2`: the entry inside the extents, `0` outside), so that the
  slabs and the partial sums can be stated over `Finset.range` with no bound carried in the index.
-/
import Idealize.ShloMosaic.Lib.ValueIdx
import Idealize.ShloMosaic.PureOps.Ideal.Laws
import proofs.«127509_j3977139716930_2_alg».proof.Proof.LibBlockedSums

noncomputable section

open scoped BigOperators

namespace Cert.ScaledLinear

open Idealize.ShloMosaic Idealize.ShloMosaic.ValueIdx

/-- The extended real the f32 word of `1.0` denotes; kept as the word, which both programs carry. -/
abbrev one : EReal := Ideal.ofBits .f32 0x3F800000#32

/-! ## Matrices read at natural-number coordinates -/

/-- A matrix at the coordinates `(r, c)`: its entry inside the extents, `0` outside. -/
def at2 {n0 n1 : Nat} (f : (⟨2, ![n0, n1]⟩ : Shape).Idx → EReal) (r c : ℕ) : EReal :=
  if h : r < n0 ∧ c < n1 then f (ix2 ⟨r, h.1⟩ ⟨c, h.2⟩) else 0

/-- Inside the extents it is the entry. -/
theorem at2_ix2 {n0 n1 : Nat} (f : (⟨2, ![n0, n1]⟩ : Shape).Idx → EReal) (a : Fin n0) (b : Fin n1) :
    at2 f a.val b.val = f (ix2 a b) := by
  unfold at2
  rw [dif_pos ⟨a.isLt, b.isLt⟩]

/-- The same, at the two coordinates of an index. -/
theorem at2_idx {n0 n1 : Nat} (f : (⟨2, ![n0, n1]⟩ : Shape).Idx → EReal) (j : (⟨2, ![n0, n1]⟩ : Shape).Idx) :
    at2 f (j 0).val (j 1).val = f j :=
  (at2_ix2 f (j 0) (j 1)).trans (congrArg f (eq_ix2 j).symm)

/-- The same, at coordinates given as numbers with their bounds. -/
theorem at2_of_lt {n0 n1 : Nat} (f : (⟨2, ![n0, n1]⟩ : Shape).Idx → EReal) {r c : ℕ} (hr : r < n0) (hc : c < n1) :
    at2 f r c = f (ix2 ⟨r, hr⟩ ⟨c, hc⟩) := at2_ix2 f ⟨r, hr⟩ ⟨c, hc⟩

/-! ## The scaled weight, the slabs and the partial sums -/

section
variable (X : (⟨2, ![8192, 4096]⟩ : Shape).Idx → EReal) (W : (⟨2, ![4096, 4096]⟩ : Shape).Idx → EReal)
  (A : (⟨2, ![16, 4096]⟩ : Shape).Idx → EReal) (B : (⟨2, ![4096, 16]⟩ : Shape).Idx → EReal)

/-- Entry `(o, i)` of the scaled weight: `W[o, i] · (∑ r, A[r, i] · B[o, r] + 1)`. -/
def scaledWeight (o i : ℕ) : EReal := at2 W o i * ((∑ r : Fin 16, at2 A r.val i * at2 B o r.val) + one)

/-- The contraction's term at column `i`, for row `r` of the flattened input and output feature `o`. -/
def term (r o i : ℕ) : EReal := at2 X r i * scaledWeight W A B o i

/-- Slab `k` of the contraction: its 512 columns `512 k … 512 k + 511`. -/
def slab (r o k : ℕ) : EReal := ∑ l : Fin 512, term X W A B r o (k * 512 + l.val)

/-- The accumulator after slab `n`: the slabs `0 … n`. -/
def partialSum (r o n : ℕ) : EReal := ∑ k ∈ Finset.range (n + 1), slab X W A B r o k

theorem partialSum_zero (r o : ℕ) : partialSum X W A B r o 0 = slab X W A B r o 0 := by
  unfold partialSum
  rw [Finset.sum_range_one]

theorem partialSum_succ (r o n : ℕ) :
    partialSum X W A B r o (n + 1) = partialSum X W A B r o n + slab X W A B r o (n + 1) := by
  unfold partialSum
  rw [Finset.sum_range_succ _ (n + 1)]

/-- After the eighth slab the accumulator holds the whole contraction over the 4096 columns. -/
theorem partialSum_full (r o : ℕ) : partialSum X W A B r o 7 = ∑ i : Fin 4096, term X W A B r o i.val := by
  unfold partialSum slab
  rw [BlockedSums.sum_range_eq_sum_fin 8 (fun k => ∑ l : Fin 512, term X W A B r o (k * 512 + l.val))]
  exact (BlockedSums.sum_blocks 8 512 (fun i : Fin (8 * 512) => term X W A B r o i.val)).symm

end

/-! ## The result as one function of the arguments -/

/-- The layer's result at `(b, s, o)`. -/
def result (x : (⟨3, ![4, 2048, 4096]⟩ : Shape).Idx → EReal) (w : (⟨2, ![4096, 4096]⟩ : Shape).Idx → EReal)
    (bias : (⟨1, ![4096]⟩ : Shape).Idx → EReal) (a : (⟨2, ![16, 4096]⟩ : Shape).Idx → EReal)
    (b : (⟨2, ![4096, 16]⟩ : Shape).Idx → EReal) : (⟨3, ![4, 2048, 4096]⟩ : Shape).Idx → EReal := fun j =>
  (∑ i : Fin 4096, x (ix3 (j 0) (j 1) i) * (w (ix2 (j 2) i) * ((∑ r : Fin 16, a (ix2 r i) * b (ix2 (j 2) r)) + one)))
    + bias (ix1 (j 2))

/-- The whole contraction over the flattened input `X[2048 b + s, i] = x[b, s, i]` is the result's sum. -/
theorem contraction_eq (x : (⟨3, ![4, 2048, 4096]⟩ : Shape).Idx → EReal)
    (X : (⟨2, ![8192, 4096]⟩ : Shape).Idx → EReal) (w : (⟨2, ![4096, 4096]⟩ : Shape).Idx → EReal)
    (a : (⟨2, ![16, 4096]⟩ : Shape).Idx → EReal) (b : (⟨2, ![4096, 16]⟩ : Shape).Idx → EReal)
    (hX : ∀ (p : Fin 4) (s : Fin 2048) (i : Fin 4096), at2 X (p.val * 2048 + s.val) i.val = x (ix3 p s i))
    (p : Fin 4) (s : Fin 2048) (o : Fin 4096) :
    partialSum X w a b (p.val * 2048 + s.val) o.val 7
      = ∑ i : Fin 4096, x (ix3 p s i) * (w (ix2 o i) * ((∑ r : Fin 16, a (ix2 r i) * b (ix2 o r)) + one)) := by
  rw [partialSum_full]
  refine Finset.sum_congr rfl fun i _ => ?_
  unfold term scaledWeight
  rw [hX p s i, at2_ix2 w o i]
  refine congrArg (fun z => x (ix3 p s i) * (w (ix2 o i) * (z + one))) ?_
  exact Finset.sum_congr rfl fun r _ => by rw [at2_ix2 a r i, at2_ix2 b o r]

end Cert.ScaledLinear

end
-- ==== Proof.PayloadValues.lean ====
/-
  The body's three payloads read at an entry, over the extended reals.

  * The zero block is `0` everywhere (`zeroBlock_apply`).
  * The accumulation adds to `acc[p, q]` the step's product: with the step's blocks `x : [2048, 512]` (input rows),
    `w : [1024, 512]` (weight rows), `a : [16, 512]` and `b : [1024, 16]` (the two low-rank factors),

        acc[p, q] + ∑ l, x[p, l] · (w[q, l] · (∑ r, b[q, r] · a[r, l] + 1))

    (`accumulate_apply`): a plain product of `b` by `a` into a zero accumulator, one added, the weight block scaled by
    it entrywise, and the input block contracted with the scaled block along the last axis of both. Changes of
    float format are the identity on the extended reals.
  * The bias payload adds the bias row at the column: `acc[p, q] + bias[0, q]` (`addBias_apply`).
-/
import proofs.«127509_j3977139716930_2_alg».proof.Proof.Gen.KernelIdeal.Skeleton
import proofs.«127509_j3977139716930_2_alg».proof.Proof.LibContractLast
import proofs.«127509_j3977139716930_2_alg».proof.Proof.LibHostRead
import proofs.«127509_j3977139716930_2_alg».proof.Proof.ScaledLinear
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx

namespace Cert.KernelIdeal.Payloads

open Cert.KernelIdeal Cert.KernelIdeal.Gen
open Cert.ScaledLinear (one)

/-- The zero block is `0` at every entry. -/
theorem zeroBlock_apply (j : S2048x1024.Idx) : k0_pay1 (F := Ideal) j = 0 := by
  unfold k0_pay1
  exact Ideal.ofBits_zero_f32

/-- The product of the two low-rank blocks into a zero accumulator, at `(q, l)`: the sum over the rank. -/
theorem lowRank_apply (b : FVec Ideal S1024x16 .bf16) (a : FVec Ideal S16x512 .bf16) (q : Fin 1024) (l : Fin 512) :
    matmul dot_S1024x16_S16x512_S1024x512_1_0_0_1_n_n none b a (constant S1024x512 .f32 0x00000000#32) (ix2 q l)
      = ∑ r : Fin 16, b (ix2 q r) * a (ix2 r l) :=
  Cert.LibHR.plainMatmul_zero_apply (φ₁ := .bf16) (φ₂ := .bf16) 1024 16 512
    dot_S1024x16_S16x512_S1024x512_1_0_0_1_n_n_wf b a q l

/-- The input block contracted with a weight block along the last axis of both, into a zero accumulator, at `(p, q)`. -/
theorem contractLast_apply (x : FVec Ideal S2048x512 .bf16) (w : FVec Ideal S1024x512 .bf16) (p : Fin 2048) (q : Fin 1024) :
    matmul dot_S2048x512_S1024x512_S2048x1024_1_1_0_0_n_n none x w (constant S2048x1024 .f32 0x00000000#32) (ix2 p q)
      = ∑ l : Fin 512, x (ix2 p l) * w (ix2 q l) :=
  Cert.LibContractLast.matmulLast_zero_apply (φ₁ := .bf16) (φ₂ := .bf16) 2048 512 1024
    dot_S2048x512_S1024x512_S2048x1024_1_1_0_0_n_n_wf none x w p q

/-- THE ACCUMULATION at `(p, q)`. -/
theorem accumulate_apply (b : Vec Ideal S1024x16 .f32) (a : Vec Ideal S16x512 .f32) (w : Vec Ideal S1024x512 .bf16)
    (x : Vec Ideal S2048x512 .bf16) (acc : Vec Ideal S2048x1024 .f32) (p : Fin 2048) (q : Fin 1024) :
    k0_pay2 (F := Ideal) b a w x acc (ix2 p q)
      = acc (ix2 p q) + ∑ l : Fin 512, x (ix2 p l) * (w (ix2 q l) * ((∑ r : Fin 16, b (ix2 q r) * a (ix2 r l)) + one)) := by
  unfold k0_pay2
  rw [shapeCast_self, shapeCast_self, shapeCast_self]
  refine congrArg (acc (ix2 p q) + ·) ?_
  refine (contractLast_apply _ _ p q).trans ?_
  refine Finset.sum_congr rfl fun l _ => ?_
  refine congrArg (x (ix2 p l) * ·) ?_
  show (w (ix2 q l) : EReal) * ((matmul (F := Ideal) dot_S1024x16_S16x512_S1024x512_1_0_0_1_n_n none _ _ (constant S1024x512 .f32 0x00000000#32) (ix2 q l) : EReal) + one) = _
  rw [lowRank_apply]
  rfl

/-- THE BIAS at `(p, q)`. -/
theorem addBias_apply (acc : Vec Ideal S2048x1024 .f32) (bias : Vec Ideal S1x1024 .f32) (p : Fin 2048) (q : Fin 1024) :
    k0_pay3 (F := Ideal) acc bias (ix2 p q) = acc (ix2 p q) + bias (ix2 (0 : Fin 1) q) := by
  unfold k0_pay3
  rw [shapeCast_self, shapeCast_self]
  refine congrArg (acc (ix2 p q) + ·) ?_
  exact broadcastTo_apply bias broadcasts_S1x1024_S2048x1024 (ix2 p q) (ix2 (0 : Fin 1) q) (fun a => match a with
    | ⟨0, _⟩ => by show (0 : Nat) = if (1 : Nat) = 1 then 0 else _; rw [if_pos rfl]
    | ⟨1, _⟩ => by show q.val = if (1024 : Nat) = 1 then 0 else q.val; rw [if_neg (by decide)])

end Cert.KernelIdeal.Payloads

end
-- ==== Proof.BlockReads.lean ====
/-
  The windows' blocks at a grid point, read at an entry of the arrays the region finds.

  The grid has 4 × 4 × 8 points, numbered `t = 32 i + 8 j + k`: `i = t / 32` picks 2048 rows of the flattened input,
  `j = t / 8 % 4` picks 1024 output features, `k = t % 8` picks 512 columns of the contraction. At point `t`

    * the input block is rows `2048 i + p`, columns `512 k + l` of the flattened input;
    * the weight block is rows `1024 j + q`, columns `512 k + l` of the weight;
    * the first low-rank block is all 16 rows, columns `512 k + l` of the first factor;
    * the second low-rank block is rows `1024 j + q`, all 16 columns of the second factor;
    * the bias block is row 0, columns `1024 j + q` of the bias row.

  The block index of every window is read off the printed index maps once, over the whole grid (`index_facts`); an
  entry of a block is then the array's entry at block index × block size + the coordinate inside the block.
-/
import proofs.«127509_j3977139716930_2_alg».proof.Proof.Gen.KernelIdeal.Frame
import proofs.«127509_j3977139716930_2_alg».proof.Proof.ScaledLinear
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen
open Cert.ScaledLinear (at2 at2_idx)

variable (m : (ℓ : Loc nD τ sig) → Buf (Elt Ideal) ℓ)

/-- The block index of each window at point `t`, on both axes: decided over the grid. -/
theorem index_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val % 8
    ∧ win0_3.index t (0 : Fin 2) = t.val / 8 % 4 ∧ win0_3.index t (1 : Fin 2) = 0
    ∧ win0_4.index t (0 : Fin 2) = 0 ∧ win0_4.index t (1 : Fin 2) = t.val / 8 % 4
    ∧ win0_5.index t (0 : Fin 2) = t.val / 32 ∧ win0_5.index t (1 : Fin 2) = t.val / 8 % 4 :=
  (by decide +kernel : ∀ t : Fin grid0.N, _)

/-- The input block at `(p, l)`. -/
theorem inputBlock_apply (c : Dev nD) (t : Fin cfg0.N) (p : Fin 2048) (l : Fin 512) :
    (iblk m c 0 t : Vec Ideal S2048x512 .bf16) (ix2 p l)
      = at2 (V m c main_v1 : S8192x4096.Idx → EReal) (t.val / 32 * 2048 + p.val) (t.val % 8 * 512 + l.val) := by
  obtain ⟨i00, i01, i10, i11, i20, i21, i30, i31, i40, i41, i50, i51⟩ := index_facts t
  unfold iblk
  rw [View.read_apply]
  show (V m c main_v1 : S8192x4096.Idx → EReal) (((cfg0.win 0).blk t).view.emb (ix2 p l)) = _
  rw [← at2_idx (V m c main_v1 : S8192x4096.Idx → EReal) (((cfg0.win 0).blk t).view.emb (ix2 p l))]
  refine congrArg₂ (at2 (V m c main_v1 : S8192x4096.Idx → EReal)) ?_ ?_
  · show win0_0.index t (0 : Fin 2) * 2048 + 1 * p.val = _
    rw [i00]; omega
  · show win0_0.index t (1 : Fin 2) * 512 + 1 * l.val = _
    rw [i01]; omega

/-- The weight block at `(q, l)`. -/
theorem weightBlock_apply (c : Dev nD) (t : Fin cfg0.N) (q : Fin 1024) (l : Fin 512) :
    (iblk m c 1 t : Vec Ideal S1024x512 .bf16) (ix2 q l)
      = at2 (V m c main_v2 : S4096x4096.Idx → EReal) (t.val / 8 % 4 * 1024 + q.val) (t.val % 8 * 512 + l.val) := by
  obtain ⟨i00, i01, i10, i11, i20, i21, i30, i31, i40, i41, i50, i51⟩ := index_facts t
  unfold iblk
  rw [View.read_apply]
  show (V m c main_v2 : S4096x4096.Idx → EReal) (((cfg0.win 1).blk t).view.emb (ix2 q l)) = _
  rw [← at2_idx (V m c main_v2 : S4096x4096.Idx → EReal) (((cfg0.win 1).blk t).view.emb (ix2 q l))]
  refine congrArg₂ (at2 (V m c main_v2 : S4096x4096.Idx → EReal)) ?_ ?_
  · show win0_1.index t (0 : Fin 2) * 1024 + 1 * q.val = _
    rw [i10]; omega
  · show win0_1.index t (1 : Fin 2) * 512 + 1 * l.val = _
    rw [i11]; omega

/-- The first low-rank factor's block at `(r, l)`. -/
theorem firstFactorBlock_apply (c : Dev nD) (t : Fin cfg0.N) (r : Fin 16) (l : Fin 512) :
    (iblk m c 2 t : Vec Ideal S16x512 .f32) (ix2 r l)
      = at2 (V m c main_arg3 : S16x4096.Idx → EReal) (r.val) (t.val % 8 * 512 + l.val) := by
  obtain ⟨i00, i01, i10, i11, i20, i21, i30, i31, i40, i41, i50, i51⟩ := index_facts t
  unfold iblk
  rw [View.read_apply]
  show (V m c main_arg3 : S16x4096.Idx → EReal) (((cfg0.win 2).blk t).view.emb (ix2 r l)) = _
  rw [← at2_idx (V m c main_arg3 : S16x4096.Idx → EReal) (((cfg0.win 2).blk t).view.emb (ix2 r l))]
  refine congrArg₂ (at2 (V m c main_arg3 : S16x4096.Idx → EReal)) ?_ ?_
  · show win0_2.index t (0 : Fin 2) * 16 + 1 * r.val = _
    rw [i20]; omega
  · show win0_2.index t (1 : Fin 2) * 512 + 1 * l.val = _
    rw [i21]; omega

/-- The second low-rank factor's block at `(q, r)`. -/
theorem secondFactorBlock_apply (c : Dev nD) (t : Fin cfg0.N) (q : Fin 1024) (r : Fin 16) :
    (iblk m c 3 t : Vec Ideal S1024x16 .f32) (ix2 q r)
      = at2 (V m c main_arg4 : S4096x16.Idx → EReal) (t.val / 8 % 4 * 1024 + q.val) (r.val) := by
  obtain ⟨i00, i01, i10, i11, i20, i21, i30, i31, i40, i41, i50, i51⟩ := index_facts t
  unfold iblk
  rw [View.read_apply]
  show (V m c main_arg4 : S4096x16.Idx → EReal) (((cfg0.win 3).blk t).view.emb (ix2 q r)) = _
  rw [← at2_idx (V m c main_arg4 : S4096x16.Idx → EReal) (((cfg0.win 3).blk t).view.emb (ix2 q r))]
  refine congrArg₂ (at2 (V m c main_arg4 : S4096x16.Idx → EReal)) ?_ ?_
  · show win0_3.index t (0 : Fin 2) * 1024 + 1 * q.val = _
    rw [i30]; omega
  · show win0_3.index t (1 : Fin 2) * 16 + 1 * r.val = _
    rw [i31]; omega

/-- The bias block at `(0, q)`. -/
theorem biasBlock_apply (c : Dev nD) (t : Fin cfg0.N) (z : Fin 1) (q : Fin 1024) :
    (iblk m c 4 t : Vec Ideal S1x1024 .f32) (ix2 z q)
      = at2 (V m c main_v3 : S1x4096.Idx → EReal) (0) (t.val / 8 % 4 * 1024 + q.val) := by
  obtain ⟨i00, i01, i10, i11, i20, i21, i30, i31, i40, i41, i50, i51⟩ := index_facts t
  unfold iblk
  rw [View.read_apply]
  show (V m c main_v3 : S1x4096.Idx → EReal) (((cfg0.win 4).blk t).view.emb (ix2 z q)) = _
  rw [← at2_idx (V m c main_v3 : S1x4096.Idx → EReal) (((cfg0.win 4).blk t).view.emb (ix2 z q))]
  refine congrArg₂ (at2 (V m c main_v3 : S1x4096.Idx → EReal)) ?_ ?_
  · show win0_4.index t (0 : Fin 2) * 1 + 1 * z.val = _
    rw [i40]; omega
  · show win0_4.index t (1 : Fin 2) * 1024 + 1 * q.val = _
    rw [i41]; omega

end Cert.KernelIdeal.Blocks

end
-- ==== Proof.Accumulation.lean ====
/-
  What the resident output block holds after each grid point.

  Grid point `t = 32 i + 8 j + k` works on the output block of rows `2048 i + p` and features `1024 j + q`, at step
  `k` of the contraction. With `X` the flattened input, `W` the weight, `A`, `B` the low-rank factors and `biasRow`
  the bias as the region finds them, the body adds to the block the slab `k` of the contraction
  (`stepProduct_eq`): at `k = 0` over the zero block, at `k > 0` over what the point before left, and at `k = 7` it
  also adds the bias. So after point `t` the block holds the partial sum of the slabs `0 … k`, plus the bias once
  `k = 7` (`blockAfter`, `outsAt_eq`): by induction on the point — the point before `t` is in the same output block
  whenever `k > 0`.
-/
import proofs.«127509_j3977139716930_2_alg».proof.Proof.StepValues
import proofs.«127509_j3977139716930_2_alg».proof.Proof.PayloadValues
import proofs.«127509_j3977139716930_2_alg».proof.Proof.BlockReads

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen
open Cert.ScaledLinear Cert.KernelIdeal.Steps Cert.KernelIdeal.Payloads Cert.KernelIdeal.Blocks

variable (m : (ℓ : Loc nD τ sig) → Buf (Elt Ideal) ℓ)

/-- The arrays as the region finds them: the flattened input, the weight, the two low-rank factors, the bias row. -/
abbrev X (c : Dev nD) : (⟨2, ![8192, 4096]⟩ : Shape).Idx → EReal := V m c main_v1
abbrev W (c : Dev nD) : (⟨2, ![4096, 4096]⟩ : Shape).Idx → EReal := V m c main_v2
abbrev A (c : Dev nD) : (⟨2, ![16, 4096]⟩ : Shape).Idx → EReal := V m c main_arg3
abbrev B (c : Dev nD) : (⟨2, ![4096, 16]⟩ : Shape).Idx → EReal := V m c main_arg4
abbrev biasRow (c : Dev nD) : (⟨2, ![1, 4096]⟩ : Shape).Idx → EReal := V m c main_v3

/-- The product one step adds at `(p, q)`, of the step's four blocks. -/
def stepProduct (x : Vec Ideal S2048x512 .bf16) (w : Vec Ideal S1024x512 .bf16) (a : Vec Ideal S16x512 .f32)
    (b : Vec Ideal S1024x16 .f32) (p : Fin 2048) (q : Fin 1024) : EReal :=
  ∑ l : Fin 512, x (ix2 p l) * (w (ix2 q l) * ((∑ r : Fin 16, b (ix2 q r) * a (ix2 r l)) + one))

/-- It depends on the blocks' entries only (and the two low-rank factors may be multiplied in either order). -/
theorem stepProduct_congr (x : Vec Ideal S2048x512 .bf16) (w : Vec Ideal S1024x512 .bf16) (a : Vec Ideal S16x512 .f32)
    (b : Vec Ideal S1024x16 .f32) (p : Fin 2048) (q : Fin 1024)
    (fx fw : Fin 512 → EReal) (fa : Fin 16 → Fin 512 → EReal) (fb : Fin 16 → EReal)
    (hx : ∀ l, x (ix2 p l) = fx l) (hw : ∀ l, w (ix2 q l) = fw l) (ha : ∀ r l, a (ix2 r l) = fa r l)
    (hb : ∀ r, b (ix2 q r) = fb r) :
    stepProduct x w a b p q = ∑ l : Fin 512, fx l * (fw l * ((∑ r : Fin 16, fa r l * fb r) + one)) := by
  unfold stepProduct
  refine Finset.sum_congr rfl fun l _ => ?_
  have hlow : (∑ r : Fin 16, b (ix2 q r) * a (ix2 r l)) = ∑ r : Fin 16, fa r l * fb r :=
    Finset.sum_congr rfl fun r _ => by rw [hb r, ha r l, mul_comm]
  rw [hx l, hw l, hlow]

/-- The product the body adds at point `t` is slab `t % 8` of the contraction for the block's row and feature. -/
theorem stepProduct_eq (c : Dev nD) (t : Fin cfg0.N) (p : Fin 2048) (q : Fin 1024) :
    stepProduct (iblk m c 0 t) (iblk m c 1 t) (iblk m c 2 t) (iblk m c 3 t) p q
      = slab (X m c) (W m c) (A m c) (B m c) (t.val / 32 * 2048 + p.val) (t.val / 8 % 4 * 1024 + q.val) (t.val % 8) :=
  stepProduct_congr (iblk m c 0 t) (iblk m c 1 t) (iblk m c 2 t) (iblk m c 3 t) p q
    (fun l => at2 (X m c) (t.val / 32 * 2048 + p.val) (t.val % 8 * 512 + l.val))
    (fun l => at2 (W m c) (t.val / 8 % 4 * 1024 + q.val) (t.val % 8 * 512 + l.val))
    (fun r l => at2 (A m c) r.val (t.val % 8 * 512 + l.val))
    (fun r => at2 (B m c) (t.val / 8 % 4 * 1024 + q.val) r.val)
    (fun l => inputBlock_apply m c t p l) (fun l => weightBlock_apply m c t q l)
    (fun r l => firstFactorBlock_apply m c t r l) (fun r => secondFactorBlock_apply m c t q r)

/-- At a first step the block ends at the step's slab. -/
theorem first_at (c : Dev nD) (t : Fin cfg0.N) (h0 : t.val % 8 = 0) (p : Fin 2048) (q : Fin 1024) :
    outsAt0 m c t.val t.isLt (ix2 p q)
      = slab (X m c) (W m c) (A m c) (B m c) (t.val / 32 * 2048 + p.val) (t.val / 8 % 4 * 1024 + q.val) (t.val % 8) := by
  have h1 : ¬t.val % 8 = 7 := by omega
  refine (congrFun (outsAt0_A m c t h0 h1) (ix2 p q)).trans ?_
  refine (congrFun (firstStep c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk m c 0 t) (iblk m c 1 t) (iblk m c 2 t) (iblk m c 3 t) (iblk m c 4 t)) (ix2 p q)).trans ?_
  refine (accumulate_apply (iblk m c 3 t) (iblk m c 2 t) (iblk m c 1 t) (iblk m c 0 t) (k0_pay1 (F := Ideal)) p q).trans ?_
  rw [zeroBlock_apply, zero_add]
  exact stepProduct_eq m c t p q

/-- At a middle step the block ends at what the point before left plus the step's slab. -/
theorem middle_at (c : Dev nD) (t : Fin cfg0.N) (h0 : ¬t.val % 8 = 0) (h1 : ¬t.val % 8 = 7) (p : Fin 2048) (q : Fin 1024) :
    outsAt0 m c t.val t.isLt (ix2 p q)
      = outsAt0 m c (t.val - 1) (Nat.lt_of_le_of_lt (Nat.sub_le _ _) t.isLt) (ix2 p q)
        + slab (X m c) (W m c) (A m c) (B m c) (t.val / 32 * 2048 + p.val) (t.val / 8 % 4 * 1024 + q.val) (t.val % 8) := by
  refine (congrFun (outsAt0_B m c t h0 h1) (ix2 p q)).trans ?_
  refine (congrFun (middleStep c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt))) (ix2 p q)).trans ?_
  refine (accumulate_apply (iblk m c 3 t) (iblk m c 2 t) (iblk m c 1 t) (iblk m c 0 t) (outsAt0 m c (t.val - 1) (Nat.lt_of_le_of_lt (Nat.sub_le _ _) t.isLt)) p q).trans ?_
  exact congrArg (_ + ·) (stepProduct_eq m c t p q)

/-- At a last step it ends at that, plus the bias at the block's feature. -/
theorem last_at (c : Dev nD) (t : Fin cfg0.N) (h0 : ¬t.val % 8 = 0) (h1 : t.val % 8 = 7) (p : Fin 2048) (q : Fin 1024) :
    outsAt0 m c t.val t.isLt (ix2 p q)
      = outsAt0 m c (t.val - 1) (Nat.lt_of_le_of_lt (Nat.sub_le _ _) t.isLt) (ix2 p q)
        + slab (X m c) (W m c) (A m c) (B m c) (t.val / 32 * 2048 + p.val) (t.val / 8 % 4 * 1024 + q.val) (t.val % 8)
        + at2 (biasRow m c) 0 (t.val / 8 % 4 * 1024 + q.val) := by
  refine (congrFun (outsAt0_C m c t h0 h1) (ix2 p q)).trans ?_
  refine (congrFun (lastStep c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt))) (ix2 p q)).trans ?_
  refine (addBias_apply (k0_pay2 (iblk m c 3 t) (iblk m c 2 t) (iblk m c 1 t) (iblk m c 0 t) (outsAt0 m c (t.val - 1) (Nat.lt_of_le_of_lt (Nat.sub_le _ _) t.isLt))) (iblk m c 4 t) p q).trans ?_
  rw [biasBlock_apply m c t (0 : Fin 1) q]
  refine congrArg (· + at2 (biasRow m c) 0 (t.val / 8 % 4 * 1024 + q.val)) ?_
  refine (accumulate_apply (iblk m c 3 t) (iblk m c 2 t) (iblk m c 1 t) (iblk m c 0 t) (outsAt0 m c (t.val - 1) (Nat.lt_of_le_of_lt (Nat.sub_le _ _) t.isLt)) p q).trans ?_
  exact congrArg (_ + ·) (stepProduct_eq m c t p q)

/-- The block after point `n`, at `(p, q)`: the partial sum of the slabs `0 … n % 8` for row `2048 (n / 32) + p` and
    feature `1024 (n / 8 % 4) + q`, plus the bias at that feature once the last slab is in. -/
def blockAfter (c : Dev nD) (n : ℕ) (p : Fin 2048) (q : Fin 1024) : EReal :=
  partialSum (X m c) (W m c) (A m c) (B m c) (n / 32 * 2048 + p.val) (n / 8 % 4 * 1024 + q.val) (n % 8)
    + if n % 8 = 7 then at2 (biasRow m c) 0 (n / 8 % 4 * 1024 + q.val) else 0

/-- THE INVARIANT: after every point the block is `blockAfter`. -/
theorem outsAt_eq (c : Dev nD) : ∀ (n : ℕ) (hn : n < cfg0.N) (p : Fin 2048) (q : Fin 1024),
    outsAt0 m c n hn (ix2 p q) = blockAfter m c n p q := by
  intro n
  induction n with
  | zero =>
    intro hn p q
    refine (first_at m c ⟨0, hn⟩ rfl p q).trans ?_
    show slab (X m c) (W m c) (A m c) (B m c) (0 / 32 * 2048 + p.val) (0 / 8 % 4 * 1024 + q.val) (0 % 8) = blockAfter m c 0 p q
    unfold blockAfter
    rw [if_neg (by decide), add_zero, show (0 : ℕ) % 8 = 0 from rfl, partialSum_zero]
  | succ n ih =>
    intro hn p q
    have hN : n + 1 < 128 := lt_of_lt_of_eq hn (show cfg0.N = 128 from N_0)
    by_cases h0 : (n + 1) % 8 = 0
    · refine (first_at m c ⟨n + 1, hn⟩ h0 p q).trans ?_
      show slab (X m c) (W m c) (A m c) (B m c) ((n + 1) / 32 * 2048 + p.val) ((n + 1) / 8 % 4 * 1024 + q.val) ((n + 1) % 8) = blockAfter m c (n + 1) p q
      unfold blockAfter
      rw [if_neg (by omega), add_zero, h0, partialSum_zero]
    · have hprev : outsAt0 m c ((⟨n + 1, hn⟩ : Fin cfg0.N).val - 1) (Nat.lt_of_le_of_lt (Nat.sub_le _ _) (⟨n + 1, hn⟩ : Fin cfg0.N).isLt) (ix2 p q)
          = blockAfter m c n p q := ih (Nat.lt_of_succ_lt hn) p q
      have e1 : (n + 1) / 32 = n / 32 := by omega
      have e2 : (n + 1) / 8 % 4 = n / 8 % 4 := by omega
      have e3 : (n + 1) % 8 = n % 8 + 1 := by omega
      have hn7 : ¬n % 8 = 7 := by omega
      by_cases h1 : (n + 1) % 8 = 7
      · refine (last_at m c ⟨n + 1, hn⟩ h0 h1 p q).trans ?_
        rw [hprev]
        show blockAfter m c n p q + slab (X m c) (W m c) (A m c) (B m c) ((n + 1) / 32 * 2048 + p.val) ((n + 1) / 8 % 4 * 1024 + q.val) ((n + 1) % 8)
            + at2 (biasRow m c) 0 ((n + 1) / 8 % 4 * 1024 + q.val) = blockAfter m c (n + 1) p q
        unfold blockAfter
        rw [if_neg hn7, add_zero, if_pos h1, e1, e2, e3, partialSum_succ]
      · refine (middle_at m c ⟨n + 1, hn⟩ h0 h1 p q).trans ?_
        rw [hprev]
        show blockAfter m c n p q + slab (X m c) (W m c) (A m c) (B m c) ((n + 1) / 32 * 2048 + p.val) ((n + 1) / 8 % 4 * 1024 + q.val) ((n + 1) % 8)
            = blockAfter m c (n + 1) p q
        unfold blockAfter
        rw [if_neg hn7, add_zero, if_neg h1, add_zero, e1, e2, e3, partialSum_succ]

end Cert.KernelIdeal.Accum

end
-- ==== Proof.RegionResult.lean ====
/-
  The kernel's result array.

  The output block of rows `2048 i + p` and features `1024 j + q` is written back once, after the eighth step of its
  contraction, when it holds the whole contraction plus the bias (`flushed_eq`). The sixteen blocks tile the
  `[8192, 4096]` array (`covered`), so after the region the array holds, at every `(row, o)`,

      partialSum … row o 7 + biasRow[0, o]

  (`regionResult`, `region_final`). The program's last operation reshapes that array to `[4, 2048, 4096]`
  (`tail_eq`), and the run of the whole program ends with the result buffer at that reshape and the arguments unchanged
  (`run`).
-/
import proofs.«127509_j3977139716930_2_alg».proof.Proof.Accumulation
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen
open Cert.ScaledLinear Cert.KernelIdeal.Blocks Cert.KernelIdeal.Accum

variable (m : (ℓ : Loc nD τ sig) → Buf (Elt Ideal) ℓ) (ρ : Dev nD → PrngReg)

/-- What the region's result array ends holding: the whole contraction plus the bias, at every row and feature. -/
def regionResult (c : Dev nD) : Buf (Elt Ideal) ((c : Thread nD τ).loc main_v4) :=
  fun i : S8192x4096.Idx =>
    partialSum (X m c) (W m c) (A m c) (B m c) (i 0).val (i 1).val 7 + at2 (biasRow m c) 0 (i 1).val

/-- WHAT A WRITE-BACK WRITES: at a point that writes the block back (the eighth step) the block is that block of
    `regionResult`. -/
theorem flushed_eq (c : Dev nD) (t : Fin cfg0.N) (hf : (cfg0.win 5).flush t = true) :
    (dats m 0 c).flushed 5 t = ((cfg0.win 5).blk t).view.read (Elt Ideal) (regionResult m c) := by
  have h7 : t.val % 8 = 7 := (flush0_5 t).mp hf
  obtain ⟨i00, i01, i10, i11, i20, i21, i30, i31, i40, i41, i50, i51⟩ := index_facts t
  show (cfg0.win 5).cut (grid0.coords t) ((dats m 0 c).after 5 t) = _
  rw [after0_5]
  funext y
  obtain ⟨p, q, rfl⟩ : ∃ (p : Fin 2048) (q : Fin 1024), y = ix2 p q := ⟨y 0, y 1, eq_ix2 y⟩
  rw [View.read_apply]
  show outsAt0 m c t.val t.isLt (ix2 p q) = regionResult m c (((cfg0.win 5).blk t).view.emb (ix2 p q))
  refine (outsAt_eq m c t.val t.isLt p q).trans ?_
  unfold blockAfter regionResult
  rw [if_pos h7, h7]
  have e0 : ((((cfg0.win 5).blk t).view.emb (ix2 p q)) 0).val = t.val / 32 * 2048 + p.val := by
    show win0_5.index t (0 : Fin 2) * 2048 + 1 * p.val = _
    rw [i50]; omega
  have e1 : ((((cfg0.win 5).blk t).view.emb (ix2 p q)) 1).val = t.val / 8 % 4 * 1024 + q.val := by
    show win0_5.index t (1 : Fin 2) * 1024 + 1 * q.val = _
    rw [i51]; omega
  rw [e0, e1]

/-- Every output block is written back at some point: decided over the grid. -/
theorem block_onto : ∀ (q0 : Fin 4) (q1 : Fin 4), ∃ t : Fin cfg0.N, (cfg0.win 5).flush t = true ∧ win0_5.index t = ![q0.val, q1.val] :=
  (by decide +kernel : ∀ (q0 : Fin 4) (q1 : Fin 4), ∃ t : Fin grid0.N, win0_5.flush t = true ∧ win0_5.index t = ![q0.val, q1.val])

/-- An index of the array is in point `t`'s block iff each coordinate is in the block's range on its axis. -/
theorem mem_block (t : Fin cfg0.N) (i : S8192x4096.Idx) :
    i ∈ ((cfg0.win 5).blk t).view.set ↔ ∀ a : Fin 2, win0_5.index t a * S2048x1024.size a ≤ (i a).val ∧ (i a).val < win0_5.index t a * S2048x1024.size a + S2048x1024.size a := by
  show i ∈ ((View.whole main_v4).slice (win0_5.rect t)).set ↔ _
  rw [View.set_slice_whole, Rect.mem_set_unit]
  exact Iff.rfl

/-- THE COVER: every entry of the array is in a block that is written back. -/
theorem covered (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, hf, ht⟩ := block_onto ⟨(i 0).val / 2048, by omega⟩ ⟨(i 1).val / 1024, by omega⟩
  have q0 : win0_5.index t (0 : Fin 2) = (i 0).val / 2048 := congrFun ht 0
  have q1 : win0_5.index t (1 : Fin 2) = (i 1).val / 1024 := congrFun ht 1
  refine ⟨t, hf, ?_⟩
  rw [mem_block]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 1024 ≤ (i 1).val ∧ (i 1).val < win0_5.index t (1 : Fin 2) * 1024 + 1024; omega

/-- THE ARRAY AFTER THE REGION. -/
theorem region_final (c : Dev nD) : (dats m 0 c).arrAt 5 cfg0.N = regionResult m c :=
  (dats m 0 c).arrAt_eq_of_cover 5 (regionResult m c) (flushed_eq m c) (covered)

end Cert.KernelIdeal.Region

end
-- ==== Proof.HostArrays.lean ====
/-
  The arrays the host prepares before the tiled computation, read at an entry over the extended reals.

  Three arrays are prepared: the input `x : [4, 2048, 4096]` flattened to `[8192, 4096]` and narrowed, the weight
  `W : [4096, 4096]` narrowed, and the bias `[4096]` written as the one-row matrix `[1, 4096]`. Over the extended
  reals a change of format is the identity, and a change of shape keeps the row-major position of every entry, so

      flattened input [2048 p + s, i] = x[p, s, i],      narrowed weight [o, i] = W[o, i],      bias row [0, o] = bias[o].

  The matrices are read at natural-number coordinates, the form in which the partial sums of the contraction are stated.
-/
import proofs.«127509_j3977139716930_2_alg».proof.Proof.Gen.KernelIdeal.Frame
import proofs.«127509_j3977139716930_2_alg».proof.Proof.ScaledLinear
import Idealize.ShloMosaic.Lib.ValueIdx
import Idealize.ShloMosaic.Lib.Pipeline.Value
import Idealize.ShloMosaic.Lib.StableHlo.Run

noncomputable section

namespace Cert.KernelIdeal.HostArrays

open Idealize.ShloMosaic Idealize.ShloMosaic.TcCoe Idealize.SL.Sem Idealize.ShloMosaic.ValueIdx Cert.KernelIdeal Cert.KernelIdeal.Gen
open Cert.ScaledLinear (at2 at2_ix2 at2_of_lt)

variable (m : (ℓ : Loc nD τ sig) → Buf (Elt Ideal) ℓ)

/-- Row `2048 p + s` of the flattened input is row `(p, s)` of the input. -/
theorem flatInput_at (c : Dev nD) (p : Fin 4) (s : Fin 2048) (i : Fin 4096) :
    at2 (V m c main_v1 : S8192x4096.Idx → EReal) (p.val * 2048 + s.val) i.val
      = m ((c : Thread nD τ).loc main_arg0) (ix3 p s i) := by
  have hr : p.val * 2048 + s.val < 8192 := by have := p.isLt; have := s.isLt; omega
  rw [at2_of_lt _ hr i.isLt]
  show StableHlo.after hostOps0 (fun b => m (c, b)) (Proc.devRef .tc main_v1)
    (ix2 ⟨p.val * 2048 + s.val, hr⟩ ⟨i.val, i.isLt⟩) = _
  after_results
  show shapeCast S8192x4096 (m ((c : Thread nD τ).loc main_arg0)) shapeCasts_S4x2048x4096_S8192x4096
    (ix2 ⟨p.val * 2048 + s.val, hr⟩ ⟨i.val, i.isLt⟩) = _
  refine shapeCast_apply _ _ _ (ix3 p s i) ?_
  rw [Shape.rowMajor_val_three, Shape.rowMajor_val_two]
  rfl

/-- The narrowed weight has the weight's entries. -/
theorem weight_at (c : Dev nD) (o i : Fin 4096) :
    at2 (V m c main_v2 : S4096x4096.Idx → EReal) o.val i.val = m ((c : Thread nD τ).loc main_arg1) (ix2 o i) := by
  rw [at2_ix2]
  show StableHlo.after hostOps0 (fun b => m (c, b)) (Proc.devRef .tc main_v2) (ix2 o i) = _
  after_results
  rfl

/-- The bias as a one-row matrix has the bias's entry `o` in column `o`. -/
theorem biasRow_at (c : Dev nD) (o : Fin 4096) :
    at2 (V m c main_v3 : S1x4096.Idx → EReal) 0 o.val = m ((c : Thread nD τ).loc main_arg2) (ix1 o) := by
  rw [at2_of_lt _ Nat.one_pos o.isLt]
  show StableHlo.after hostOps0 (fun b => m (c, b)) (Proc.devRef .tc main_v3)
    (ix2 ⟨0, Nat.one_pos⟩ ⟨o.val, o.isLt⟩) = _
  after_results
  show shapeCast S1x4096 (m ((c : Thread nD τ).loc main_arg2)) shapeCasts_S4096_S1x4096
    (ix2 ⟨0, Nat.one_pos⟩ ⟨o.val, o.isLt⟩) = _
  refine shapeCast_apply _ _ _ (ix1 o) ?_
  rw [Shape.rowMajor_val_one, Shape.rowMajor_val_two]
  show o.val = 0 * 4096 + o.val
  omega

end Cert.KernelIdeal.HostArrays

end
-- ==== Proof.KernelResult.lean ====
/-
  The kernel's result is the scaled linear layer of its arguments.

  After the region the `[8192, 4096]` array holds, at `(2048 b + s, o)`, the whole contraction over the flattened
  input plus the bias (`Region.region_final`); the program's last operation reshapes it to `[4, 2048, 4096]`, so the
  result at `(b, s, o)` is that entry (`tail_eq`, `reshape_apply`). The arrays the region finds are the arguments
  themselves — the input flattened row-major, the weight, the two low-rank factors, the bias as a one-row matrix
  (changes of float format are the identity on the extended reals) — so that entry is
  `ScaledLinear.result` of the five arguments at `(b, s, o)` (`result_eq`): the eight slabs are the whole sum over the
  4096 columns (`ScaledLinear.contraction_eq`). `run` states the program's run with the result so named.
-/
import proofs.«127509_j3977139716930_2_alg».proof.Proof.RegionResult
import proofs.«127509_j3977139716930_2_alg».proof.Proof.HostArrays
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen
open Cert.ScaledLinear Cert.KernelIdeal.Accum Cert.KernelIdeal.Region Cert.KernelIdeal.HostArrays

variable (m : (ℓ : Loc nD τ sig) → Buf (Elt Ideal) ℓ) (ρ : Dev nD → PrngReg)

/-! ## The arrays the region finds are the arguments -/

theorem W_eq (c : Dev nD) : W m c = (m ((c : Thread nD τ).loc main_arg1)) := funext fun j => by
  rw [← at2_idx (W m c) j]
  exact (weight_at m c (j 0) (j 1)).trans (congrArg _ (eq_ix2 j).symm)

theorem A_eq' (c : Dev nD) : A m c = (m ((c : Thread nD τ).loc main_arg3)) := V_main_arg3 m c

theorem B_eq (c : Dev nD) : B m c = (m ((c : Thread nD τ).loc main_arg4)) := V_main_arg4 m c

/-! ## The reshape after the region -/

/-- The program's result buffer after the run: the region's array, reshaped. -/
theorem tail_eq (c : Dev nD) :
    Pipeline.afterTail₀ cfgs (dats m) 0 (V0 m) [hostOps1] c main_v5
      = shapeCast S4x2048x4096 (regionResult m c) Gen.shapeCasts_S8192x4096_S4x2048x4096 := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = regionResult m c :=
    (Pipeline.withArrays_arr spec0 launch0.win.arr_inj c _ _ 5).trans (region_final m c)
  rw [hw]
  rfl

/-- The reshape reads `(b, s, o)` at `(2048 b + s, o)`: the same row-major position. -/
theorem reshape_apply (y : S8192x4096.Idx → EReal) (p : Fin 4) (s : Fin 2048) (o : Fin 4096) :
    shapeCast S4x2048x4096 y Gen.shapeCasts_S8192x4096_S4x2048x4096 (ix3 p s o)
      = y (ix2 ⟨p.val * 2048 + s.val, by have := p.isLt; have := s.isLt; omega⟩ o) :=
  shapeCast_apply y Gen.shapeCasts_S8192x4096_S4x2048x4096 (ix3 p s o) _ (by
    rw [Shape.rowMajor_val_two, Shape.rowMajor_val_three]
    rfl)

/-! ## The result -/

/-- THE KERNEL'S RESULT is the scaled linear layer of the five arguments. -/
theorem result_eq (c : Dev nD) :
    shapeCast S4x2048x4096 (regionResult m c) Gen.shapeCasts_S8192x4096_S4x2048x4096
      = result (m ((c : Thread nD τ).loc main_arg0)) (m ((c : Thread nD τ).loc main_arg1)) (m ((c : Thread nD τ).loc main_arg2)) (m ((c : Thread nD τ).loc main_arg3)) (m ((c : Thread nD τ).loc main_arg4)) := by
  funext j
  obtain ⟨p, s, o, rfl⟩ : ∃ (p : Fin 4) (s : Fin 2048) (o : Fin 4096), j = ix3 p s o := ⟨j 0, j 1, j 2, eq_ix3 j⟩
  rw [reshape_apply]
  show partialSum (X m c) (W m c) (A m c) (B m c) (p.val * 2048 + s.val) o.val 7 + at2 (biasRow m c) 0 o.val = _
  rw [W_eq, A_eq', B_eq, biasRow_at m c o,
    contraction_eq (m ((c : Thread nD τ).loc main_arg0)) (X m c) (m ((c : Thread nD τ).loc main_arg1)) (m ((c : Thread nD τ).loc main_arg3)) (m ((c : Thread nD τ).loc main_arg4)) (flatInput_at m c) p s o]
  rfl

/-! ## The run -/

/-- Every weakly fair execution of the program terminates with the result buffer at the scaled linear layer of the
    arguments and the arguments unchanged. -/
theorem run : θ_run defs (onTc (τ := τ) (main (F := Ideal))) ⟨m, fun _ => 0, ρ⟩ fun r => ∀ c : Dev nD,
      r.2.mem ((c.tc : Thread nD τ).loc main_v5)
        = result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((Gen.A_eq m c 2).trans (V_main_arg3 m c))),
      ((h c).1 3).trans (((dats m 0 c).arrAt_in 3 rfl _).trans ((Gen.A_eq m c 3).trans (V_main_arg4 m c)))⟩)
    (run_main m ρ)

end Cert.KernelIdeal.Result

end
-- ==== Proof.ReferenceValue.lean ====
/-
  The reference program's last stage is the scaled linear layer, as one function of its five arguments.

  Read index by index over the extended reals, the stage's value at `(b, s, o)` is
  `(∑ i, x[b, s, i] · (W[o, i] · (∑ r, A[r, i] · B[o, r] + 1))) + bias[o]`: the two contractions are finite sums, the
  transposition and the broadcasts are reads at a permuted or a projected index, and the entrywise operations are the
  sum and the product of the extended reals. The factors already stand in the order in which the program multiplies
  them, so no algebraic law is used: after the index functions are identified with the coordinate constructors the
  two sides are the same term.
-/
import proofs.«127509_j3977139716930_2_alg».proof.Proof.Gen.ReferenceIdeal.Read
import proofs.«127509_j3977139716930_2_alg».proof.Proof.ScaledLinear

noncomputable section

open scoped BigOperators

namespace Cert.ReferenceValue

open Cert.ReferenceIdeal Cert.ReferenceIdeal.Read Idealize.ShloMosaic Idealize.ShloMosaic.ValueIdx

/-! ## The index functions at coordinates -/

/-- The outer contraction reads its left operand at `(b, s, k)`. -/
theorem lidx_outer (p : Fin 4) (s : Fin 2048) (o k : Fin 4096) :
    lidx_main_v5 (ix3 p s o) k = ix3 p s k :=
  funext fun a => Fin.ext (by match a with | ⟨0, _⟩ => rfl | ⟨1, _⟩ => rfl | ⟨2, _⟩ => rfl)

/-- The outer contraction reads its right operand, the scaled weight, at `(o, k)`. -/
theorem ridx_outer (p : Fin 4) (s : Fin 2048) (o k : Fin 4096) :
    ridx_main_v5 (ix3 p s o) k = ix2 o k :=
  funext fun a => Fin.ext (by match a with | ⟨0, _⟩ => rfl | ⟨1, _⟩ => rfl)

/-- The transposition reads `(o, k)` at `(k, o)`. -/
theorem idx_transpose (o k : Fin 4096) : idx_main_v3 (ix2 o k) = ix2 k o :=
  funext fun a => Fin.ext (by match a with | ⟨0, _⟩ => rfl | ⟨1, _⟩ => rfl)

/-- The inner contraction at `(k, o)` reads its left operand at `(r, k)`. -/
theorem lidx_inner (k o : Fin 4096) (r : Fin 16) : lidx_main_v0 (ix2 k o) r = ix2 r k :=
  funext fun a => Fin.ext (by match a with | ⟨0, _⟩ => rfl | ⟨1, _⟩ => rfl)

/-- The inner contraction at `(k, o)` reads its right operand at `(o, r)`. -/
theorem ridx_inner (k o : Fin 4096) (r : Fin 16) : ridx_main_v0 (ix2 k o) r = ix2 o r :=
  funext fun a => Fin.ext (by match a with | ⟨0, _⟩ => rfl | ⟨1, _⟩ => rfl)

/-- The two broadcasts of the bias read it at `o`. -/
theorem idx_bias (p : Fin 4) (s : Fin 2048) (o : Fin 4096) :
    idx_main_v6 (idx_main_v7 (ix3 p s o)) = ix1 o :=
  funext fun a => Fin.ext (by match a with | ⟨0, _⟩ => rfl)

/-! ## The scaled weight at an entry -/

/-- Entry `(o, k)` of the scaled weight is `W[o, k] · (∑ r, A[r, k] · B[o, r] + 1)`. -/
theorem weight_apply (x1 : (⟨S4096x4096, .f32⟩ : BufTy).Contents (Elt Ideal))
    (x3 : (⟨S16x4096, .f32⟩ : BufTy).Contents (Elt Ideal)) (x4 : (⟨S4096x16, .f32⟩ : BufTy).Contents (Elt Ideal))
    (o k : Fin 4096) :
    val_main_v4 (F := Ideal) x1 x3 x4 (ix2 o k)
      = x1 (ix2 o k) * ((∑ r : Fin 16, x3 (ix2 r k) * x4 (ix2 o r)) + Cert.ScaledLinear.one) := by
  rw [val_main_v4_apply, val_main_v3_apply, idx_transpose, val_main_v2_apply, val_main_v0_apply, val_main_v1_apply,
    val_main_cst_apply, Ideal.mulf_def, Ideal.addf_def, Ideal.ofBits_def]
  refine congrArg (fun z => x1 (ix2 o k) * (z + Cert.ScaledLinear.one)) ?_
  exact Finset.sum_congr rfl fun r _ => by rw [lidx_inner, ridx_inner]

/-! ## The last stage -/

/-- The reference's last stage is the scaled linear layer of the input, the weight, the bias and the two factors. -/
theorem reference_eq (x0 : (⟨Cert.ReferenceIdeal.S4x2048x4096, .f32⟩ : BufTy).Contents (Elt Ideal))
    (x1 : (⟨Cert.ReferenceIdeal.S4096x4096, .f32⟩ : BufTy).Contents (Elt Ideal))
    (x2 : (⟨Cert.ReferenceIdeal.S4096, .f32⟩ : BufTy).Contents (Elt Ideal))
    (x3 : (⟨Cert.ReferenceIdeal.S16x4096, .f32⟩ : BufTy).Contents (Elt Ideal))
    (x4 : (⟨Cert.ReferenceIdeal.S4096x16, .f32⟩ : BufTy).Contents (Elt Ideal)) :
    Cert.ReferenceIdeal.Read.val_main_v8 (F := Ideal) x0 x1 x2 x3 x4 = Cert.ScaledLinear.result x0 x1 x2 x3 x4 := by
  funext j
  obtain ⟨p, s, o, rfl⟩ : ∃ (p : Fin 4) (s : Fin 2048) (o : Fin 4096), j = ix3 p s o := ⟨j 0, j 1, j 2, eq_ix3 j⟩
  rw [val_main_v8_apply, val_main_v5_apply, val_main_v7_apply, val_main_v6_apply, idx_bias, Ideal.addf_def]
  show _ = (∑ i : Fin 4096, x0 (ix3 p s i) * (x1 (ix2 o i) * ((∑ r : Fin 16, x3 (ix2 r i) * x4 (ix2 o r))
    + Cert.ScaledLinear.one))) + x2 (ix1 o)
  refine congrArg (fun z => z + x2 (ix1 o)) ?_
  exact Finset.sum_congr rfl fun k _ => by rw [lidx_outer, ridx_outer, weight_apply]

end Cert.ReferenceValue

end
-- ==== Proof.lean ====
/-
  A linear layer whose weight is scaled entrywise by one plus a rank-16 product: the tiled kernel against the plain
  reference, over the extended reals.

  Both programs compute, at `(b, s, o)`,

      (∑ i, x[b, s, i] · (W[o, i] · (∑ r, A[r, i] · B[o, r] + 1))) + bias[o]

  (`Cert.ScaledLinear.result`). The reference forms the scaled weight whole and contracts it with the input in one
  sum over the 4096 columns. The kernel flattens the input to `[8192, 4096]`, cuts the output into sixteen blocks of
  `2048 × 1024` and the contraction into eight slabs of 512 columns, keeps each output block resident while it adds
  one slab per step — starting from the zero block, rebuilding the scaled weight's slab from the low-rank factors at
  every step, the factors multiplied in the other order — and adds the bias after the last slab. The two results are
  equal because a finite sum over the extended reals may be regrouped and its factors commuted: they form a
  commutative monoid under addition and multiplication is commutative, so no input needs to be finite. Changes of
  float format are the identity on the extended reals, and the word of `1.0` is the same on both sides.

  The frames of the two kernel programs are the generated ones; the reference's frame is its run with the result
  dropped; nothing was rewritten between the kernel and its idealization, so that conjunct is `True`.
-/
import proofs.«127509_j3977139716930_2_alg».proof.Defs
import proofs.«127509_j3977139716930_2_alg».proof.Proof.Gen.Kernel
import proofs.«127509_j3977139716930_2_alg».proof.Proof.Gen.Kernel.Skeleton
import proofs.«127509_j3977139716930_2_alg».proof.Proof.Gen.Kernel.Launch
import proofs.«127509_j3977139716930_2_alg».proof.Proof.Gen.Kernel.Points
import proofs.«127509_j3977139716930_2_alg».proof.Proof.Gen.Kernel.Frame
import proofs.«127509_j3977139716930_2_alg».proof.Proof.Gen.KernelIdeal
import proofs.«127509_j3977139716930_2_alg».proof.Proof.Gen.KernelIdeal.Skeleton
import proofs.«127509_j3977139716930_2_alg».proof.Proof.Gen.KernelIdeal.Launch
import proofs.«127509_j3977139716930_2_alg».proof.Proof.Gen.KernelIdeal.Points
import proofs.«127509_j3977139716930_2_alg».proof.Proof.Gen.KernelIdeal.Frame
import proofs.«127509_j3977139716930_2_alg».proof.Proof.Gen.ReferenceIdeal
import proofs.«127509_j3977139716930_2_alg».proof.Proof.Gen.Pre_finite_inputs
import proofs.«127509_j3977139716930_2_alg».proof.Proof.Gen.ReferenceIdeal.Run
import proofs.«127509_j3977139716930_2_alg».proof.Proof.Gen.ReferenceIdeal.Read
import proofs.«127509_j3977139716930_2_alg».proof.Proof.KernelResult
import proofs.«127509_j3977139716930_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the kernel and its reading over the extended reals. -/
theorem preserves : Cert.preserves_Kernel_KernelIdeal := trivial

/-- From memories that agree on the five arguments, both programs end with the scaled linear layer of those
    arguments in their result buffers. -/
theorem algebraic : Cert.algebraic_KernelIdeal_ReferenceIdeal := by
  intro m ρ m' ρ' _ hagree
  refine ⟨fun c => Cert.ScaledLinear.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceValue.reference_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
